-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) (main_arg1 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  main_v8
-- ==== Kernel.lean ====
abbrev S16384x2048 : Shape := ⟨2, ![16384, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  broadcasts_S512x1_S512x2048 : S512x1.Broadcasts S512x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S16384x2048.size a
  hwx0_1 : ∀ i : grid0.Coords, EltTy.bits .f32 = 32 ∨ (Rect.block (s := S16384x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S16384x2048.size a
  hwx0_2 : ∀ i : grid0.Coords, EltTy.bits .f32 = 32 ∨ (Rect.block (s := S16384x2048) S512x2048.size (cc0_transform_2 i) (hinb0_2 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S_ : Shape := ⟨0, ![]⟩
abbrev S16384 : Shape := ⟨1, ![16384]⟩
abbrev S16384x1 : Shape := ⟨2, ![16384, 1]⟩

abbrev nBuf : Space → Nat
  | .hbm => 17
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x2048, .f32⟩
  | .hbm, ⟨12, _⟩ => ⟨S16384x2048, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S16384x2048_S16384_d1 : S16384x2048.ReducesTo [1] S16384
  h_S_ : 0 < S_.numel
  bcast_S16384_S16384x1_0 : S16384.BroadcastsInDim S16384x1 (![0] : Fin 1 → Fin S16384x1.rank)
  bcast_S_S16384x2048 : S_.BroadcastsInDim S16384x2048 (![] : Fin 0 → Fin S16384x2048.rank)
  bcast_S16384x1_S16384x2048_0_1 : S16384x1.BroadcastsInDim S16384x2048 (![0, 1] : Fin 2 → Fin S16384x2048.rank)

variable [Facts₀]

class Facts : Prop extends Facts₀ where

variable [Facts]
-- ==== Proof.Reflection.lean ====
/-
  The Householder reflection of each row of z across the hyperplane orthogonal to the same row of v, on the
  extended reals: for a row index r,

      out[r, c] = z[r, c] - (2 * v[r, c]) * ((sum_k v[r, k] * z[r, k]) / (sum_k v[r, k] * v[r, k])).

  This file states that function once, entry by entry, over the literal shape [16384, 2048]. Both programs compute it
  with the same operations in the same order (the two products, the two row sums from zero, their quotient, the
  doubling, the product with the quotient spread along the row, the difference), so no law of arithmetic beyond
  0 + x = x is needed to join them, and nothing is asked of the entries: they may be infinite.
-/
import Idealize.ShloMosaic.PureOps.Ideal
import Idealize.ShloMosaic.PureOps.Ideal.Laws
import Idealize.ShloMosaic.Lib.ValueIdx

noncomputable section

open scoped BigOperators

namespace Cert.Reflection

open Idealize.ShloMosaic Idealize.ShloMosaic.ValueIdx

/-- The shape of both arguments and of the result: 16384 rows of 2048 entries. -/
abbrev Arr : Shape := ⟨2, ![16384, 2048]⟩

/-- The dot product of row `r` of `a` with row `r` of `b`. -/
def rowDot (a b : Arr.Idx → EReal) (r : Fin 16384) : EReal :=
  ∑ k : Fin 2048, a (ix2 r k) * b (ix2 r k)

/-- The reflected array, entry by entry: `z - (2 v) * ((v . z) / (v . v))` along each row. The literal two is kept as
    its binary word (the same word on both sides is never evaluated); the quotient is the extended reals' total division. -/
def reflect (v z : Arr.Idx → EReal) : Arr.Idx → EReal := fun i =>
  z i - (Ideal.ofBits .f32 0x40000000#32 * v i) * Ideal.div (rowDot v z (i 0)) (rowDot v v (i 0))

/-- The reflection read at an entry given by its coordinates. -/
theorem reflect_apply (v z : Arr.Idx → EReal) (r : Fin 16384) (q : Fin 2048) :
    reflect v z (ix2 r q)
      = z (ix2 r q) - (Ideal.ofBits .f32 0x40000000#32 * v (ix2 r q)) * Ideal.div (rowDot v z r) (rowDot v v r) := rfl

end Cert.Reflection

end
-- ==== Proof.BlockReflection.lean ====
/-
  One grid point of the kernel. The body loads a block of 512 whole rows of v and the same rows of z, and stores one
  block: z - (2 v) * ((row sum of v * z) / (row sum of v * v)), the two lane sums kept as columns and the quotient
  spread back along the rows. Because a block holds WHOLE rows, the row sums taken inside the block are the row sums
  of the arrays: if the loaded blocks are rows b*512 ... b*512 + 511 of two arrays, the stored block is those rows of
  the arrays' reflection.
-/
import proofs.«166834_j40492951667019_1_alg».proof.Proof.Gen.KernelIdeal.Value
import proofs.«166834_j40492951667019_1_alg».proof.Proof.Reflection

noncomputable section

open scoped BigOperators

namespace Cert.KernelIdeal.Block

open Cert.KernelIdeal Cert.KernelIdeal.Gen Cert.KernelIdeal.Value Cert.Reflection
open Idealize.ShloMosaic Idealize.ShloMosaic.ValueIdx

theorem hz : (![0, 0] : Fin 2 → Nat) = fun _ => 0 := funext fun a => by fin_cases a <;> rfl

/-- A lane sum from zero of the product of two blocks, read at row `r`: the dot product of the two blocks' rows `r`. -/
theorem laneSum (a b : Vec Ideal S512x2048 .f32) (r : Fin 512) :
    (multiReduction (F := Ideal) .add [1] S512 (mulf a b) 0x00000000#32 reduces_S512x2048_S512 (.inl rfl) rfl) (ix1 r)
      = ∑ k : Fin 2048, a (ix2 r k) * b (ix2 r k) := by
  refine (Ideal.multiReduction_add_single (mulf a b) 0x00000000#32 reduces_S512x2048_S512 (.inl rfl) rfl (ix1 r)).trans ?_
  refine Finset.sum_congr rfl fun k _ => ?_
  have e : (reduces_S512x2048_S512.lift (ix1 r) k : S512x2048.Idx) = ix2 r k :=
    funext fun d => Fin.ext (by match d with | ⟨0, _⟩ => rfl | ⟨1, _⟩ => rfl)
  rw [e]
  rfl

/-- What the body's one store leaves at entry (r, q) of the block, from the loaded blocks `P0` (of z) and `P1` (of v). -/
theorem stored_entry (P0 P1 : Vec Ideal S512x2048 .f32) (r : Fin 512) (q : Fin 2048) :
    E2 (F := Ideal) P0 P1 (ix2 r q)
      = P0 (ix2 r q) - (Ideal.ofBits .f32 0x40000000#32 * P1 (ix2 r q))
          * Ideal.div (∑ k : Fin 2048, P1 (ix2 r k) * P0 (ix2 r k)) (∑ k : Fin 2048, P1 (ix2 r k) * P1 (ix2 r k)) := by
  have e0 : ix2_0 (ix2 r q) = ix2 r q := funext fun a => Fin.ext (by match a with | ⟨0, _⟩ => rfl | ⟨1, _⟩ => rfl)
  have e1 : ix2_1 (ix2 r q) = ix2 r q := funext fun a => Fin.ext (by match a with | ⟨0, _⟩ => rfl | ⟨1, _⟩ => rfl)
  have e2 : ix2_2 (ix2 r q) = ix1 r := funext fun a => Fin.ext (by match a with | ⟨0, _⟩ => rfl)
  have e3 : ix2_3 (ix2 r q) = ix1 r := funext fun a => Fin.ext (by match a with | ⟨0, _⟩ => rfl)
  show FloatOps.subf (F := Ideal) (P0 (ix2_0 (ix2 r q))) (FloatOps.mulf (FloatOps.mulf (Scalar.ofBits .f32 0x40000000#32) (P1 (ix2_1 (ix2 r q))))
      (FloatOps.divf ((multiReduction (F := Ideal) .add [1] S512 (mulf P1 P0) 0x00000000#32 reduces_S512x2048_S512 (.inl rfl) rfl) (ix2_2 (ix2 r q)))
        ((multiReduction (F := Ideal) .add [1] S512 (mulf P1 P1) 0x00000000#32 reduces_S512x2048_S512 (.inl rfl) rfl) (ix2_3 (ix2 r q))))) = _
  rw [e0, e1, e2, e3, laneSum, laneSum]
  rfl

/-- ONE GRID POINT. If the loaded blocks are rows `b*512 + .` of the arrays `v` and `z`, then the block the body leaves is
    the same rows of the reflection of `z` by `v`: stated over variables, the entries matched through their coordinates'
    values. -/
theorem point_reflect (x0 x1 : Vec Ideal S512x2048 .f32) (v z : Arr.Idx → EReal) (b : Nat)
    (h0 : ∀ (y : S512x2048.Idx) (i : Arr.Idx), (i 0).val = b * 512 + (y 0).val → (i 1).val = (y 1).val → x0 y = v i)
    (h1 : ∀ (y : S512x2048.Idx) (i : Arr.Idx), (i 0).val = b * 512 + (y 0).val → (i 1).val = (y 1).val → x1 y = z i)
    (y : S512x2048.Idx) (i : Arr.Idx) (hi0 : (i 0).val = b * 512 + (y 0).val) (hi1 : (i 1).val = (y 1).val) :
    out0_2 (F := Ideal) x0 x1 y = reflect v z i := by
  obtain ⟨r, q, rfl⟩ : ∃ (r : Fin 512) (q : Fin 2048), y = ix2 r q := ⟨y 0, y 1, eq_ix2 y⟩
  obtain ⟨R, Q, rfl⟩ : ∃ (R : Fin 16384) (Q : Fin 2048), i = ix2 R Q := ⟨i 0, i 1, eq_ix2 i⟩
  have hR : R.val = b * 512 + r.val := hi0
  have hQ : Q.val = q.val := hi1
  unfold out0_2
  rw [View.ld_unit_zero (S := S512x2048) hz, View.ld_unit_zero (S := S512x2048) hz, canon2_eq, stored_entry, reflect_apply]
  have hk0 : ∀ k : Fin 2048, x0 (ix2 r k) = v (ix2 R k) := fun k => h0 (ix2 r k) (ix2 R k) hR rfl
  have hk1 : ∀ k : Fin 2048, x1 (ix2 r k) = z (ix2 R k) := fun k => h1 (ix2 r k) (ix2 R k) hR rfl
  rw [h0 (ix2 r q) (ix2 R Q) hR hQ, h1 (ix2 r q) (ix2 R Q) hR hQ]
  simp only [hk0, hk1, rowDot]

end Cert.KernelIdeal.Block

end
-- ==== Proof.KernelReflection.lean ====
/-
  From grid points to the whole array. The grid has 32 points; at point t all three windows sit on block row t: rows
  512 t ... 512 t + 511, all 2048 columns. So each point writes back those rows of the reflection of z by v (one grid
  point's lemma, instantiated at the point's blocks), the 32 blocks cover the 16384 rows (row i is in block i / 512),
  and the result array after the run is the reflection of the argument arrays.
-/
import proofs.«166834_j40492951667019_1_alg».proof.Proof.Gen.KernelIdeal.Value
import proofs.«166834_j40492951667019_1_alg».proof.Proof.BlockReflection

noncomputable section

namespace Cert.KernelIdeal.Whole

open Cert.KernelIdeal Cert.KernelIdeal.Gen Cert.KernelIdeal.Value Cert.KernelIdeal.Block Cert.Reflection
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps, decided over the grid: the two input windows move with the output window along the rows,
    no window moves along the columns, and the block row stays below 32. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 31 :=
  (by decide +kernel : ∀ t : Fin grid0.N, _)

/-- Every block row is some point's. -/
theorem idx_onto : ∀ q0 : Fin 32, ∃ t : Fin cfg0.N, win0_2.index t = ![q0.val, 0] :=
  (by decide +kernel : ∀ q0 : Fin 32, ∃ t : Fin grid0.N, win0_2.index t = ![q0.val, 0])

/-- The block of v at point `t` is rows `512 * (block row) + .` of the array. -/
theorem vblock_apply (c : Dev nD) (t : Fin cfg0.N) (y : S512x2048.Idx) (i : Arr.Idx)
    (h0 : (i 0).val = win0_2.index t (0 : Fin 2) * 512 + (y 0).val) (h1 : (i 1).val = (y 1).val) :
    (iblk m c 0 t : Vec Ideal S512x2048 .f32) y = (V m c main_arg0 : Arr.Idx → EReal) i := by
  obtain ⟨e0, e1, e2, e3, e4, e5⟩ := idx_facts t
  unfold iblk
  rw [View.read_apply]
  show V m c main_arg0 _ = V m c main_arg0 _
  congr 1
  funext a
  apply Fin.ext
  match a with
  | ⟨0, _⟩ => show win0_0.index t (0 : Fin 2) * 512 + 1 * (y 0).val = (i 0).val; omega
  | ⟨1, _⟩ => show win0_0.index t (1 : Fin 2) * 2048 + 1 * (y 1).val = (i 1).val; omega

/-- The block of z at point `t` is the same rows of its array. -/
theorem zblock_apply (c : Dev nD) (t : Fin cfg0.N) (y : S512x2048.Idx) (i : Arr.Idx)
    (h0 : (i 0).val = win0_2.index t (0 : Fin 2) * 512 + (y 0).val) (h1 : (i 1).val = (y 1).val) :
    (iblk m c 1 t : Vec Ideal S512x2048 .f32) y = (V m c main_arg1 : Arr.Idx → EReal) i := by
  obtain ⟨e0, e1, e2, e3, e4, e5⟩ := idx_facts t
  unfold iblk
  rw [View.read_apply]
  show V m c main_arg1 _ = V m c main_arg1 _
  congr 1
  funext a
  apply Fin.ext
  match a with
  | ⟨0, _⟩ => show win0_1.index t (0 : Fin 2) * 512 + 1 * (y 0).val = (i 0).val; omega
  | ⟨1, _⟩ => show win0_1.index t (1 : Fin 2) * 2048 + 1 * (y 1).val = (i 1).val; omega

/-- WHAT POINT `t` WRITES BACK is block `t` of the reflection of the argument arrays. -/
theorem flushed_eq (c : Dev nD) (t : Fin cfg0.N) :
    (dats m 0 c).flushed 2 t
      = ((cfg0.win 2).blk t).view.read (Elt Ideal) (reflect (V m c main_arg0) (V m c main_arg1)) := by
  obtain ⟨e0, e1, e2, e3, e4, e5⟩ := idx_facts t
  rw [flushed2]
  funext j
  show out0_2 (iblk m c 0 t) (iblk m c 1 t) j
    = reflect (V m c main_arg0) (V m c main_arg1) (((cfg0.win 2).blk t).view.emb j)
  refine point_reflect (iblk m c 0 t) (iblk m c 1 t) (V m c main_arg0) (V m c main_arg1) (win0_2.index t (0 : Fin 2))
    (fun y i a b => vblock_apply m c t y i a b) (fun y i a b => zblock_apply m c t y i a b) j
    (((cfg0.win 2).blk t).view.emb j) ?_ ?_
  · show win0_2.index t (0 : Fin 2) * 512 + 1 * (j 0).val = win0_2.index t (0 : Fin 2) * 512 + (j 0).val; omega
  · show win0_2.index t (1 : Fin 2) * 2048 + 1 * (j 1).val = (j 1).val; omega

/-- An entry of the array is in point `t`'s block iff each coordinate is in the block's range on its axis. -/
theorem mem_blk (t : Fin cfg0.N) (i : S16384x2048.Idx) :
    i ∈ ((cfg0.win 2).blk t).view.set ↔ ∀ a : Fin 2, win0_2.index t a * S512x2048.size a ≤ (i a).val
      ∧ (i a).val < win0_2.index t a * S512x2048.size a + S512x2048.size a := by
  show i ∈ ((View.whole main_v0).slice (win0_2.rect t)).set ↔ _
  rw [View.set_slice_whole, Rect.mem_set_unit]
  exact Iff.rfl

/-- Every entry is in some point's block: row `r` is in block row `r / 512`. -/
theorem covered (i : S16384x2048.Idx) :
    ∃ t : Fin cfg0.N, (cfg0.win 2).flush t = true ∧ i ∈ ((cfg0.win 2).blk t).view.set := by
  have hi0 : (i 0).val < 16384 := (i 0).isLt
  have hi1 : (i 1).val < 2048 := (i 1).isLt
  obtain ⟨t, ht⟩ := idx_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 2048 ≤ (i 1).val ∧ (i 1).val < win0_2.index t (1 : Fin 2) * 2048 + 2048
    omega

/-- THE ARRAY after the run is the reflection of the argument arrays. -/
theorem final (c : Dev nD) :
    (dats m 0 c).arrAt 2 cfg0.N
      = reflect (m ((c : Thread nD τ).loc main_arg0)) (m ((c : Thread nD τ).loc main_arg1)) :=
  (dats m 0 c).arrAt_eq_of_cover 2 (reflect (V m c main_arg0) (V m c main_arg1)) (fun t _ => flushed_eq m c t) covered

/-- The kernel's run, read: the result array at the reflection of z by v, the arguments unchanged. -/
theorem run : θ_run defs (onTc (τ := τ) (main (F := Ideal))) ⟨m, fun _ => 0, ρ⟩ fun r => ∀ c : Dev nD,
      r.2.mem ((c : Thread nD τ).loc main_v0)
        = reflect (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.ReferenceReflection.lean ====
/-
  The reference's result is the reflection. Its last operation subtracts from z the product of (2 spread over the
  array) * v with the row quotient spread along each row; the quotient divides the row sum of v * z by the row sum of
  v * v, each sum taken from the constant zero and kept as a column. Read at an entry (r, q), every stage lands on the
  entry (r, q) of an argument or on row r of a sum, so the result at (r, q) is the reflection's entry once the two
  leading zeros are dropped from the sums.
-/
import proofs.«166834_j40492951667019_1_alg».proof.Proof.Gen.ReferenceIdeal.Read
import proofs.«166834_j40492951667019_1_alg».proof.Proof.Reflection

noncomputable section

open scoped BigOperators

namespace Cert.ReferenceIdeal.RefValue

open Cert.ReferenceIdeal Cert.ReferenceIdeal.Gen Cert.ReferenceIdeal.Read Cert.Reflection
open Idealize.ShloMosaic Idealize.ShloMosaic.ValueIdx

/-- The entry of the array that the k-th summand of row (r, .)'s sum reads, through the column and the spreading
    along the row: entry (r, k). -/
theorem sum_idx_v1 (r : Fin 16384) (q : Fin 2048) (k : Fin 2048) :
    idx_main_v1 (idx_main_v2 (idx_main_v9 (ix2 r q))) k = ix2 r k :=
  funext fun a => Fin.ext (by match a with | ⟨0, _⟩ => rfl | ⟨1, _⟩ => rfl)

theorem sum_idx_v4 (r : Fin 16384) (q : Fin 2048) (k : Fin 2048) :
    idx_main_v4 (idx_main_v5 (idx_main_v9 (ix2 r q))) k = ix2 r k :=
  funext fun a => Fin.ext (by match a with | ⟨0, _⟩ => rfl | ⟨1, _⟩ => rfl)

/-- The reference's result, as the stage of its last operation, is the reflection of the arguments. -/
theorem result_eq (x0 x1 : Arr.Idx → EReal) :
    val_main_v11 (F := Ideal) x0 x1 = reflect x0 x1 := by
  funext i
  obtain ⟨r, q, rfl⟩ : ∃ (r : Fin 16384) (q : Fin 2048), i = ix2 r q := ⟨i 0, i 1, eq_ix2 i⟩
  rw [val_main_v11_apply, val_main_v10_apply, val_main_v7_apply, val_main_v6_apply, val_main_cst_1_apply,
    val_main_v9_apply, val_main_v8_apply, val_main_v2_apply, val_main_v5_apply, val_main_v1_apply, val_main_v4_apply,
    val_main_cst_apply, val_main_cst_0_apply, reflect_apply]
  simp only [val_main_v0_apply, val_main_v3_apply, sum_idx_v1, sum_idx_v4, Ideal.subf_def, Ideal.mulf_def,
    Ideal.hostDivf_def, Ideal.ofBits_def, Ideal.ofBits_zero_f32, zero_add, rowDot]

end Cert.ReferenceIdeal.RefValue

end
-- ==== Proof.lean ====
/-
  The kernel and its reference both compute, for every row r of the two [16384, 2048] arguments v and z, the
  Householder reflection z[r, .] - (2 v[r, .]) * ((v[r, .] . z[r, .]) / (v[r, .] . v[r, .])) on the extended reals.
  The kernel does it 512 whole rows at a time over a grid of 32 points; the reference on the whole arrays at once.
  The two programs apply the same operations in the same order with the same literals, so they are one function
  (Proof/Reflection.lean) with no law of arithmetic beyond 0 + x = x and no use of the inputs' finiteness:
    Proof/BlockReflection.lean      one grid point: whole rows in, the same rows of the reflection out;
    Proof/KernelReflection.lean     the 32 blocks cover the array, so the kernel's result is the reflection;
    Proof/ReferenceReflection.lean  the reference's last stage, read at an entry, is the reflection.
  The three frames are the generated runs; the idealization rewrote nothing, so there is nothing to preserve.
-/
import proofs.«166834_j40492951667019_1_alg».proof.Defs
import proofs.«166834_j40492951667019_1_alg».proof.Proof.Gen.Kernel
import proofs.«166834_j40492951667019_1_alg».proof.Proof.Gen.Kernel.Skeleton
import proofs.«166834_j40492951667019_1_alg».proof.Proof.Gen.Kernel.Launch
import proofs.«166834_j40492951667019_1_alg».proof.Proof.Gen.Kernel.Points
import proofs.«166834_j40492951667019_1_alg».proof.Proof.Gen.Kernel.Frame
import proofs.«166834_j40492951667019_1_alg».proof.Proof.Gen.KernelIdeal
import proofs.«166834_j40492951667019_1_alg».proof.Proof.Gen.KernelIdeal.Skeleton
import proofs.«166834_j40492951667019_1_alg».proof.Proof.Gen.KernelIdeal.Launch
import proofs.«166834_j40492951667019_1_alg».proof.Proof.Gen.KernelIdeal.Points
import proofs.«166834_j40492951667019_1_alg».proof.Proof.Gen.KernelIdeal.Frame
import proofs.«166834_j40492951667019_1_alg».proof.Proof.Gen.ReferenceIdeal
import proofs.«166834_j40492951667019_1_alg».proof.Proof.Gen.Pre_finite_inputs
import proofs.«166834_j40492951667019_1_alg».proof.Proof.Gen.KernelIdeal.Value
import proofs.«166834_j40492951667019_1_alg».proof.Proof.Gen.ReferenceIdeal.Run
import proofs.«166834_j40492951667019_1_alg».proof.Proof.Gen.ReferenceIdeal.Read
import proofs.«166834_j40492951667019_1_alg».proof.Proof.Reflection
import proofs.«166834_j40492951667019_1_alg».proof.Proof.KernelReflection
import proofs.«166834_j40492951667019_1_alg».proof.Proof.ReferenceReflection
import Idealize.ShloMosaic.Adequacy
import Idealize.ShloMosaic.Init

noncomputable section

namespace Cert.Proof

open Idealize.ShloMosaic Idealize.SL.Sem Cert.Kernel

/-- The word-level kernel terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on v and z, the kernel's result array ends at the reflection of z by v (its 32 blocks of
    whole rows), and so does the reference's (its last stage read at an entry): the two results are equal entry by entry. -/
theorem algebraic : Cert.algebraic_KernelIdeal_ReferenceIdeal := by
  intro m ρ m' ρ' _ hagree
  refine ⟨fun c => Cert.Reflection.reflect (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
